-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1280 : Shape := ⟨3, ![8, 1024, 1280]⟩
abbrev S8x163840 : Shape := ⟨2, ![8, 163840]⟩
abbrev S_ : Shape := ⟨0, ![]⟩

class Facts : Prop where
  bcast_S_S8x1024x1280 : S_.BroadcastsInDim S8x1024x1280 (![] : Fin 0 → Fin S8x1024x1280.rank)
  reducesTo_S8x1024x1280_S_d0_1_2 : S8x1024x1280.ReducesTo [0, 1, 2] S_
  h_S_ : 0 < S_.numel
  bcast_S_S8x163840 : S_.BroadcastsInDim S8x163840 (![] : Fin 0 → Fin S8x163840.rank)
  reducesTo_S8x163840_S_d0_1 : S8x163840.ReducesTo [0, 1] S_

variable [Facts]

def fn {F : FTy → Type} [FloatOps F] (main_arg0 : FVec F S8x1024x1280 .f32) (main_arg1 : FVec F S8x163840 .f32) : IVec S_ 1 :=
  let main_v0 : FVec F S8x1024x1280 .f32 := Host.absf main_arg0
  let main_cst : FVec F S_ .f32 := constant S_ .f32 0x7F800000#32
  let main_v1 : FVec F S8x1024x1280 .f32 := broadcastInDim S8x1024x1280 ![] bcast_S_S8x1024x1280 main_cst
  let main_v2 : IVec S8x1024x1280 1 := cmpf .olt main_v0 main_v1
  let main_c : IVec S_ 1 := constantI S_ 1 1#1
  let main_v3 : IVec S_ 1 := (fun x v => Host.reduce IntOp.andi x v reducesTo_S8x1024x1280_S_d0_1_2 h_S_) main_v2 main_c
  let main_v4 : FVec F S8x163840 .f32 := Host.absf main_arg1
  let main_cst_0 : FVec F S_ .f32 := constant S_ .f32 0x7F800000#32
  let main_v5 : FVec F S8x163840 .f32 := broadcastInDim S8x163840 ![] bcast_S_S8x163840 main_cst_0
  let main_v6 : IVec S8x163840 1 := cmpf .olt main_v4 main_v5
  let main_c_1 : IVec S_ 1 := constantI S_ 1 1#1
  let main_v7 : IVec S_ 1 := (fun x v => Host.reduce IntOp.andi x v reducesTo_S8x163840_S_d0_1 h_S_) main_v6 main_c_1
  let main_v8 : IVec S_ 1 := andi main_v3 main_v7
  main_v8
-- ==== Kernel.lean ====
abbrev S8x1024x1280 : Shape := ⟨3, ![8, 1024, 1280]⟩
abbrev S8x163840 : Shape := ⟨2, ![8, 163840]⟩
abbrev S8x128x1280 : Shape := ⟨3, ![8, 128, 1280]⟩
abbrev S8x81920 : Shape := ⟨2, ![8, 81920]⟩
abbrev S8x1280x64 : Shape := ⟨3, ![8, 1280, 64]⟩
abbrev S8x64x1280 : Shape := ⟨3, ![8, 64, 1280]⟩
abbrev S1x1024x1280 : Shape := ⟨3, ![1, 1024, 1280]⟩
abbrev S1x128x1280 : Shape := ⟨3, ![1, 128, 1280]⟩
abbrev S1x64x1280 : Shape := ⟨3, ![1, 64, 1280]⟩
abbrev S1024x1280 : Shape := ⟨2, ![1024, 1280]⟩
abbrev S64x1280 : Shape := ⟨2, ![64, 1280]⟩
abbrev S1024x64 : Shape := ⟨2, ![1024, 64]⟩

abbrev nBuf : Space → Nat
  | .hbm => 7
  | .vmem => 8
  | .smem => 0
  | _ => 0

abbrev bufTy : (tb : Table) → Fin (tcTables nBuf tb) → BufTy
  | .hbm, ⟨0, _⟩ => ⟨S8x1024x1280, .f32⟩
  | .hbm, ⟨1, _⟩ => ⟨S8x163840, .f32⟩
  | .hbm, ⟨2, _⟩ => ⟨S8x128x1280, .f32⟩
  | .hbm, ⟨3, _⟩ => ⟨S8x81920, .f32⟩
  | .hbm, ⟨4, _⟩ => ⟨S8x1280x64, .f32⟩
  | .hbm, ⟨5, _⟩ => ⟨S8x64x1280, .f32⟩
  | .hbm, ⟨6, _⟩ => ⟨S8x1024x1280, .f32⟩
  | .local _ .vmem, ⟨0, _⟩ => ⟨S1x1024x1280, .f32⟩
  | .local _ .vmem, ⟨1, _⟩ => ⟨S1x1024x1280, .f32⟩
  | .local _ .vmem, ⟨2, _⟩ => ⟨S1x128x1280, .f32⟩
  | .local _ .vmem, ⟨3, _⟩ => ⟨S1x128x1280, .f32⟩
  | .local _ .vmem, ⟨4, _⟩ => ⟨S1x64x1280, .f32⟩
  | .local _ .vmem, ⟨5, _⟩ => ⟨S1x64x1280, .f32⟩
  | .local _ .vmem, ⟨6, _⟩ => ⟨S1x1024x1280, .f32⟩
  | .local _ .vmem, ⟨7, _⟩ => ⟨S1x1024x1280, .f32⟩
  | _, _ => ⟨S8x1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x163840_S8x128x1280 : S8x163840.ShapeCasts S8x128x1280
  slices_S8x163840_S8x81920_0_81920 : S8x163840.Slices ![0, 81920] S8x81920
  shapeCasts_S8x81920_S8x1280x64 : S8x81920.ShapeCasts S8x1280x64
  transposes_S8x1280x64_S8x64x1280_0_2_1 : S8x1280x64.Transposes [0, 2, 1] S8x64x1280
  inb_S1x1024x1280_S1x1024x1280_0_0_0 : ∀ a, (![0, 0, 0] : Fin 3 → Nat) a + S1x1024x1280.size a ≤ S1x1024x1280.size a
  h_S1x1024x1280 : 0 < S1x1024x1280.numel
  shapeCasts_S1x1024x1280_S1024x1280 : S1x1024x1280.ShapeCasts S1024x1280
  bitsLt_bf16_f32 : FTy.bits .bf16 < FTy.bits .f32
  inb_S1x128x1280_S1x64x1280_0_0_0 : ∀ a, (![0, 0, 0] : Fin 3 → Nat) a + S1x64x1280.size a ≤ S1x128x1280.size a
  h_S1x64x1280 : 0 < S1x64x1280.numel
  shapeCasts_S1x64x1280_S64x1280 : S1x64x1280.ShapeCasts S64x1280
  inb_S1x64x1280_S1x64x1280_0_0_0 : ∀ a, (![0, 0, 0] : Fin 3 → Nat) a + S1x64x1280.size a ≤ S1x64x1280.size a
  shapeCasts_S1024x1280_S1x1024x1280 : S1024x1280.ShapeCasts S1x1024x1280
  dot_S1024x1280_S64x1280_S1024x64_1_1_0_0_n_n_wf : DotDims.WF S1024x1280 S64x1280 S1024x64 [1] [1] [0] [0] [] []
  dot_S1024x64_S64x1280_S1024x1280_1_0_0_1_n_n_wf : DotDims.WF S1024x64 S64x1280 S1024x1280 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1280.size a ≤ S8x1024x1280.size a
  hwx0_0 : ∀ i : grid0.Coords, EltTy.bits .f32 = 32 ∨ (Rect.block (s := S8x1024x1280) S1x1024x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1280.size a ≤ S8x128x1280.size a
  hwx0_1 : ∀ i : grid0.Coords, EltTy.bits .f32 = 32 ∨ (Rect.block (s := S8x128x1280) S1x128x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1280.size a ≤ S8x64x1280.size a
  hwx0_2 : ∀ i : grid0.Coords, EltTy.bits .f32 = 32 ∨ (Rect.block (s := S8x64x1280) S1x64x1280.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1280.size a ≤ S8x1024x1280.size a
  hwx0_3 : ∀ i : grid0.Coords, EltTy.bits .f32 = 32 ∨ (Rect.block (s := S8x1024x1280) S1x1024x1280.size (cc0_transform_3 i) (hinb0_3 i)).WholeWords (EltTy.packing .f32)

variable [Facts₀]

def dot_S1024x1280_S64x1280_S1024x64_1_1_0_0_n_n : DotDims S1024x1280 S64x1280 S1024x64 where
  lhsContracting := [1]
  rhsContracting := [1]
  lhsNonContracting := [0]
  rhsNonContracting := [0]
  lhsBatch := []
  rhsBatch := []
  wf := dot_S1024x1280_S64x1280_S1024x64_1_1_0_0_n_n_wf
def dot_S1024x64_S64x1280_S1024x1280_1_0_0_1_n_n : DotDims S1024x64 S64x1280 S1024x1280 where
  lhsContracting := [1]
  rhsContracting := [0]
  lhsNonContracting := [0]
  rhsNonContracting := [1]
  lhsBatch := []
  rhsBatch := []
  wf := dot_S1024x64_S64x1280_S1024x1280_1_0_0_1_n_n_wf

abbrev win0_0 : Pipeline.Window sig grid0 :=
  Pipeline.Window.ofSpec (Memref.whole main_arg0) S1x1024x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x64x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024x1280.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x1024x1280 : Shape := ⟨3, ![8, 1024, 1280]⟩
abbrev S8x163840 : Shape := ⟨2, ![8, 163840]⟩
abbrev S8x81920 : Shape := ⟨2, ![8, 81920]⟩
abbrev S8x64x1280 : Shape := ⟨3, ![8, 64, 1280]⟩
abbrev S8x1024x64 : Shape := ⟨3, ![8, 1024, 64]⟩
abbrev S8x1280x64 : Shape := ⟨3, ![8, 1280, 64]⟩

abbrev nBuf : Space → Nat
  | .hbm => 8
  | .vmem => 0
  | .smem => 0
  | _ => 0

abbrev bufTy : (tb : Table) → Fin (tcTables nBuf tb) → BufTy
  | .hbm, ⟨0, _⟩ => ⟨S8x1024x1280, .f32⟩
  | .hbm, ⟨1, _⟩ => ⟨S8x163840, .f32⟩
  | .hbm, ⟨2, _⟩ => ⟨S8x81920, .f32⟩
  | .hbm, ⟨3, _⟩ => ⟨S8x64x1280, .f32⟩
  | .hbm, ⟨4, _⟩ => ⟨S8x1024x64, .f32⟩
  | .hbm, ⟨5, _⟩ => ⟨S8x81920, .f32⟩
  | .hbm, ⟨6, _⟩ => ⟨S8x1280x64, .f32⟩
  | .hbm, ⟨7, _⟩ => ⟨S8x1024x1280, .f32⟩
  | _, _ => ⟨S8x1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  slices_S8x163840_S8x81920_0_0 : S8x163840.Slices ![0, 0] S8x81920
  shapeCasts_S8x81920_S8x64x1280 : S8x81920.ShapeCasts S8x64x1280
  slices_S8x163840_S8x81920_0_81920 : S8x163840.Slices ![0, 81920] S8x81920
  shapeCasts_S8x81920_S8x1280x64 : S8x81920.ShapeCasts S8x1280x64
  dot_S8x1024x1280_S8x64x1280_S8x1024x64_2_2_1_1_0_0_wf : DotDims.WF S8x1024x1280 S8x64x1280 S8x1024x64 [2] [2] [1] [1] [0] [0]
  dot_S8x1024x64_S8x1280x64_S8x1024x1280_2_2_1_1_0_0_wf : DotDims.WF S8x1024x64 S8x1280x64 S8x1024x1280 [2] [2] [1] [1] [0] [0]

variable [Facts₀]

def dot_S8x1024x1280_S8x64x1280_S8x1024x64_2_2_1_1_0_0 : DotDims S8x1024x1280 S8x64x1280 S8x1024x64 where
  lhsContracting := [2]
  rhsContracting := [2]
  lhsNonContracting := [1]
  rhsNonContracting := [1]
  lhsBatch := [0]
  rhsBatch := [0]
  wf := dot_S8x1024x1280_S8x64x1280_S8x1024x64_2_2_1_1_0_0_wf
def dot_S8x1024x64_S8x1280x64_S8x1024x1280_2_2_1_1_0_0 : DotDims S8x1024x64 S8x1280x64 S8x1024x1280 where
  lhsContracting := [2]
  rhsContracting := [2]
  lhsNonContracting := [1]
  rhsNonContracting := [1]
  lhsBatch := [0]
  rhsBatch := [0]
  wf := dot_S8x1024x64_S8x1280x64_S8x1024x1280_2_2_1_1_0_0_wf

class Facts : Prop extends Facts₀ where

variable [Facts]
-- ==== Proof.Adapter.lean ====
/-
  The function both programs compute: a per-sample low-rank adapter.

  Sample `b` comes with a row `e b` of 163840 numbers that packs two matrices, both row-major:
  the down-projection `D_b[r, d] = e b [r * 1280 + d]` (64 x 1280, the first 81920 entries) and the
  up-projection `U_b[o, r] = e b [81920 + o * 64 + r]` (1280 x 64, the last 81920 entries).  The result is
  `out[b, s, o] = sum over r of (sum over d of x[b, s, d] * D_b[r, d]) * U_b[o, r]`:
  project each row of the sample onto 64 directions, then expand back to 1280 features.
  Both sums are finite sums of extended reals in this nesting; no rearrangement is needed to compare the two
  programs, so no finiteness of the inputs is used.
-/
import Idealize.ShloMosaic.PureOps.Ideal
import Idealize.ShloMosaic.Lib.ValueIdx

noncomputable section

namespace Cert.Adapter

open Idealize.ShloMosaic Idealize.ShloMosaic.ValueIdx

/-- Where the down-projection's entry `(r, d)` sits in a sample's flat row. -/
abbrev downPos (r : Fin 64) (d : Fin 1280) : Fin 163840 :=
  ⟨r.val * 1280 + d.val, by have := r.isLt; have := d.isLt; omega⟩

/-- Where the up-projection's entry `(o, r)` sits in a sample's flat row. -/
abbrev upPos (o : Fin 1280) (r : Fin 64) : Fin 163840 :=
  ⟨81920 + (o.val * 64 + r.val), by have := r.isLt; have := o.isLt; omega⟩

/-- The rank-64 hidden activation: row `s` of sample `b` against direction `r`. -/
def hidden (x : (⟨3, ![8, 1024, 1280]⟩ : Shape).Idx → EReal) (e : (⟨2, ![8, 163840]⟩ : Shape).Idx → EReal)
    (b : Fin 8) (s : Fin 1024) (r : Fin 64) : EReal :=
  ∑ d : Fin 1280, x (ix3 b s d) * e (ix2 b (downPos r d))

/-- One entry of the result. -/
def outAt (x : (⟨3, ![8, 1024, 1280]⟩ : Shape).Idx → EReal) (e : (⟨2, ![8, 163840]⟩ : Shape).Idx → EReal)
    (b : Fin 8) (s : Fin 1024) (o : Fin 1280) : EReal :=
  ∑ r : Fin 64, hidden x e b s r * e (ix2 b (upPos o r))

/-- The whole result array as one function of the two argument arrays. -/
def out (x : (⟨3, ![8, 1024, 1280]⟩ : Shape).Idx → EReal) (e : (⟨2, ![8, 163840]⟩ : Shape).Idx → EReal) :
    (⟨3, ![8, 1024, 1280]⟩ : Shape).Idx → EReal :=
  fun i => outAt x e (i 0) (i 1) (i 2)

theorem out_ix3 (x : (⟨3, ![8, 1024, 1280]⟩ : Shape).Idx → EReal) (e : (⟨2, ![8, 163840]⟩ : Shape).Idx → EReal)
    (b : Fin 8) (s : Fin 1024) (o : Fin 1280) : out x e (ix3 b s o) = outAt x e b s o := rfl

end Cert.Adapter

end
-- ==== Proof.Body.lean ====
/-
  What one grid step's body computes, entry by entry, on the extended reals.

  The body loads a sample's rows `X` (1 x 1024 x 1280), the first 64 rows `D` of its 128 x 1280 view of the
  packed row (1 x 64 x 1280), and the transposed up-projection `W` (1 x 64 x 1280); drops the leading unit axis of
  each; forms `H = X * D^T` (contracting the 1280 features) into a zero accumulator, then `H * W` (contracting
  the 64 directions) into a zero accumulator; and stores the result under a new leading unit axis.  Narrowing to
  a shorter float format is the identity on the extended reals, and a product into a zero accumulator is the
  plain sum of products.  So entry `(0, s, o)` of what is stored is
  `sum over r of (sum over d of X[0, s, d] * D[0, r, d]) * W[0, r, o]`.
-/
import proofs.«180186_j2826088480798_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The first product's dimension record: rows x features against directions x features. -/
abbrev Ddown := dot_S1024x1280_S64x1280_S1024x64_1_1_0_0_n_n
/-- The second product's dimension record: rows x directions against directions x features. -/
abbrev Dup := dot_S1024x64_S64x1280_S1024x1280_1_0_0_1_n_n

/-! ## The operand indices of the two products -/

theorem down_lhs0 (j : S1024x64.Idx) (q : Ddown.contr.Idx) : (Ddown.lhsIdx j q 0).val = (j 0).val := by
  unfold DotDims.lhsIdx
  rw [dif_neg (show ¬(0 : Fin S1024x1280.rank) ∈ Ddown.lhsBatch by decide),
    dif_pos (show (0 : Fin S1024x1280.rank) ∈ Ddown.lhsNonContracting by decide)]
  rfl
theorem down_lhs1 (j : S1024x64.Idx) (q : Ddown.contr.Idx) : (Ddown.lhsIdx j q 1).val = (q ⟨0, by decide⟩).val :=
  Ddown.lhsIdx_val_of_single rfl j q
theorem down_rhs0 (j : S1024x64.Idx) (q : Ddown.contr.Idx) : (Ddown.rhsIdx j q 0).val = (j 1).val := by
  unfold DotDims.rhsIdx
  rw [dif_neg (show ¬(0 : Fin S64x1280.rank) ∈ Ddown.rhsBatch by decide),
    dif_pos (show (0 : Fin S64x1280.rank) ∈ Ddown.rhsNonContracting by decide)]
  rfl
theorem down_rhs1 (j : S1024x64.Idx) (q : Ddown.contr.Idx) : (Ddown.rhsIdx j q 1).val = (q ⟨0, by decide⟩).val :=
  Ddown.rhsIdx_val_of_single rfl j q

theorem up_lhs0 (j : S1024x1280.Idx) (q : Dup.contr.Idx) : (Dup.lhsIdx j q 0).val = (j 0).val := by
  unfold DotDims.lhsIdx
  rw [dif_neg (show ¬(0 : Fin S1024x64.rank) ∈ Dup.lhsBatch by decide),
    dif_pos (show (0 : Fin S1024x64.rank) ∈ Dup.lhsNonContracting by decide)]
  rfl
theorem up_lhs1 (j : S1024x1280.Idx) (q : Dup.contr.Idx) : (Dup.lhsIdx j q 1).val = (q ⟨0, by decide⟩).val :=
  Dup.lhsIdx_val_of_single rfl j q
theorem up_rhs0 (j : S1024x1280.Idx) (q : Dup.contr.Idx) : (Dup.rhsIdx j q 0).val = (q ⟨0, by decide⟩).val :=
  Dup.rhsIdx_val_of_single rfl j q
theorem up_rhs1 (j : S1024x1280.Idx) (q : Dup.contr.Idx) : (Dup.rhsIdx j q 1).val = (j 1).val := by
  unfold DotDims.rhsIdx
  rw [dif_neg (show ¬(1 : Fin S64x1280.rank) ∈ Dup.rhsBatch by decide),
    dif_pos (show (1 : Fin S64x1280.rank) ∈ Dup.rhsNonContracting by decide)]
  rfl

/-! ## The two products at an entry -/

/-- Rows against directions, contracting the features: entry `(s, r)` is the sum over the 1280 features. -/
theorem matmul_down (A : FVec Ideal S1024x1280 .bf16) (B : FVec Ideal S64x1280 .bf16) (s : Fin 1024) (r : Fin 64) :
    FloatOps.matmul Ddown none A B (constant (F := Ideal) S1024x64 .f32 0x00000000#32) (ix2 s r)
      = ∑ d : Fin 1280, A (ix2 s d) * B (ix2 r d) := by
  refine (Ideal.matmul_constant_zero_apply Ddown none A B (ix2 s r)).trans ?_
  rw [← Equiv.sum_comp (contrEquiv1 Ddown 1280 rfl rfl).symm]
  refine Finset.sum_congr rfl fun d _ => ?_
  have hd := contrEquiv1_symm_val Ddown 1280 rfl rfl d
  have el : Ddown.lhsIdx (ix2 s r) ((contrEquiv1 Ddown 1280 rfl rfl).symm d) = ix2 s d := funext fun a => Fin.ext (by
    match a with
    | ⟨0, _⟩ => exact down_lhs0 _ _
    | ⟨1, _⟩ => exact (down_lhs1 _ _).trans hd)
  have er : Ddown.rhsIdx (ix2 s r) ((contrEquiv1 Ddown 1280 rfl rfl).symm d) = ix2 r d := funext fun a => Fin.ext (by
    match a with
    | ⟨0, _⟩ => exact down_rhs0 _ _
    | ⟨1, _⟩ => exact (down_rhs1 _ _).trans hd)
  rw [el, er]

/-- Hidden activations against the transposed up-projection, contracting the 64 directions. -/
theorem matmul_up (H : FVec Ideal S1024x64 .bf16) (W : FVec Ideal S64x1280 .bf16) (s : Fin 1024) (o : Fin 1280) :
    FloatOps.matmul Dup none H W (constant (F := Ideal) S1024x1280 .f32 0x00000000#32) (ix2 s o)
      = ∑ r : Fin 64, H (ix2 s r) * W (ix2 r o) := by
  refine (Ideal.matmul_constant_zero_apply Dup none H W (ix2 s o)).trans ?_
  rw [← Equiv.sum_comp (contrEquiv1 Dup 64 rfl rfl).symm]
  refine Finset.sum_congr rfl fun r _ => ?_
  have hr := contrEquiv1_symm_val Dup 64 rfl rfl r
  have el : Dup.lhsIdx (ix2 s o) ((contrEquiv1 Dup 64 rfl rfl).symm r) = ix2 s r := funext fun a => Fin.ext (by
    match a with
    | ⟨0, _⟩ => exact up_lhs0 _ _
    | ⟨1, _⟩ => exact (up_lhs1 _ _).trans hr)
  have er : Dup.rhsIdx (ix2 s o) ((contrEquiv1 Dup 64 rfl rfl).symm r) = ix2 r o := funext fun a => Fin.ext (by
    match a with
    | ⟨0, _⟩ => exact (up_rhs0 _ _).trans hr
    | ⟨1, _⟩ => exact up_rhs1 _ _)
  rw [el, er]

/-! ## The unit axis dropped and added -/

theorem drop_rows (v : Vec Ideal S1x1024x1280 .f32) (h : S1x1024x1280.ShapeCasts S1024x1280) (s : Fin 1024) (d : Fin 1280) :
    shapeCast S1024x1280 v h (ix2 s d) = v (ix3 0 s d) :=
  shapeCast_apply v h (ix2 s d) (ix3 0 s d) (by
    rw [Shape.rowMajor_val_three, Shape.rowMajor_val_two]
    show (0 * 1024 + s.val) * 1280 + d.val = s.val * 1280 + d.val
    omega)

theorem drop_weights (v : Vec Ideal S1x64x1280 .f32) (h : S1x64x1280.ShapeCasts S64x1280) (r : Fin 64) (d : Fin 1280) :
    shapeCast S64x1280 v h (ix2 r d) = v (ix3 0 r d) :=
  shapeCast_apply v h (ix2 r d) (ix3 0 r d) (by
    rw [Shape.rowMajor_val_three, Shape.rowMajor_val_two]
    show (0 * 64 + r.val) * 1280 + d.val = r.val * 1280 + d.val
    omega)

theorem add_rows (v : FVec Ideal S1024x1280 .f32) (h : S1024x1280.ShapeCasts S1x1024x1280) (s : Fin 1024) (o : Fin 1280) :
    shapeCast S1x1024x1280 v h (ix3 0 s o) = v (ix2 s o) :=
  shapeCast_apply v h (ix3 0 s o) (ix2 s o) (by
    rw [Shape.rowMajor_val_three, Shape.rowMajor_val_two]
    show s.val * 1280 + o.val = (0 * 1024 + s.val) * 1280 + o.val
    omega)

/-! ## The stored value at an entry -/

/-- Entry `(0, s, o)` of what the body stores: project row `s` onto the 64 directions, then expand to feature `o`. -/
theorem stored_apply (X : Vec Ideal S1x1024x1280 .f32) (D W : Vec Ideal S1x64x1280 .f32) (s : Fin 1024) (o : Fin 1280) :
    k0_pay1 (F := Ideal) X D W (ix3 0 s o)
      = ∑ r : Fin 64, (∑ d : Fin 1280, X (ix3 0 s d) * D (ix3 0 r d)) * W (ix3 0 r o) := by
  unfold k0_pay1
  refine (add_rows _ _ s o).trans ?_
  refine (matmul_up _ _ s o).trans ?_
  refine Finset.sum_congr rfl fun r _ => ?_
  refine congrArg₂ (· * ·) ?_ ?_
  · refine (matmul_down _ _ s r).trans ?_
    refine Finset.sum_congr rfl fun d _ => ?_
    exact congrArg₂ (· * ·) (drop_rows X _ s d) (drop_weights D _ r d)
  · exact drop_weights W _ r o

end Cert.KernelIdeal.Body

end
-- ==== Proof.Entry.lean ====
/-
  What the launch finds in the arrays it did not receive as arguments.

  Before the launch the host lays the packed row out twice.  The second window's array is the packed row
  viewed as 128 rows of 1280: entry `(b, q, d)` is the row's flat position `q * 1280 + d`, so rows `q < 64` are
  the down-projection.  The third window's array takes the row's second half, views it 1280 x 64 (the
  up-projection, position `81920 + (o * 64 + r)` at `(b, o, r)`), and exchanges the last two axes: entry
  `(b, r, o)` of it is the up-projection's entry `(o, r)`.
-/
import proofs.«180186_j2826088480798_2_alg».proof.Proof.Gen.KernelIdeal.Frame
import proofs.«180186_j2826088480798_2_alg».proof.Proof.Adapter
import Idealize.ShloMosaic.Lib.Pipeline.Value
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx Cert.Adapter

variable (m : (ℓ : Loc nD τ sig) → Buf (Elt Ideal) ℓ)

/-- The second window's array is the packed row viewed 128 x 1280. -/
theorem packed_view (c : Dev nD) :
    (V m c main_v0 : S8x128x1280.Idx → EReal)
      = shapeCast S8x128x1280 (m ((c : Thread nD τ).loc main_arg1)) shapeCasts_S8x163840_S8x128x1280 := by
  dsimp only [Gen.V, Gen.hostOps0]; after_results; rfl

/-- Its entry `(b, q, d)` is the packed row at flat position `q * 1280 + d`. -/
theorem packed_view_apply (c : Dev nD) (b : Fin 8) (q : Fin 128) (d : Fin 1280) (p : Fin 163840) (hp : p.val = q.val * 1280 + d.val) :
    (V m c main_v0 : S8x128x1280.Idx → EReal) (ix3 b q d) = m ((c : Thread nD τ).loc main_arg1) (ix2 b p) := by
  refine (congrFun (packed_view m c) (ix3 b q d)).trans ?_
  refine shapeCast_apply _ _ (ix3 b q d) (ix2 b p) ?_
  rw [Shape.rowMajor_val_two, Shape.rowMajor_val_three]
  show b.val * 163840 + p.val = (b.val * 128 + q.val) * 1280 + d.val
  omega

/-- The third window's array is the row's second half, viewed 1280 x 64, with its last two axes exchanged. -/
theorem up_view (c : Dev nD) :
    (V m c main_v3 : S8x64x1280.Idx → EReal)
      = transpose S8x64x1280 [0, 2, 1]
          (shapeCast S8x1280x64
            (extractStridedSlice S8x81920 ![0, 81920] (m ((c : Thread nD τ).loc main_arg1)) slices_S8x163840_S8x81920_0_81920)
            shapeCasts_S8x81920_S8x1280x64)
          transposes_S8x1280x64_S8x64x1280_0_2_1 := by
  dsimp only [Gen.V, Gen.hostOps0]; after_results; rfl

/-- Its entry `(b, r, o)` is the up-projection's entry `(o, r)` of sample `b`. -/
theorem up_view_apply (c : Dev nD) (b : Fin 8) (r : Fin 64) (o : Fin 1280) :
    (V m c main_v3 : S8x64x1280.Idx → EReal) (ix3 b r o) = m ((c : Thread nD τ).loc main_arg1) (ix2 b (upPos o r)) := by
  have hr := r.isLt; have ho := o.isLt; have hb := b.isLt
  refine (congrFun (up_view m c) (ix3 b r o)).trans ?_
  refine (transpose_apply _ _ _ (ix3 b r o) (ix3 b o r) (fun a => by
    match a with
    | ⟨0, _⟩ => rfl
    | ⟨1, _⟩ => rfl
    | ⟨2, _⟩ => rfl)).trans ?_
  refine (shapeCast_apply _ _ (ix3 b o r) (ix2 b (⟨o.val * 64 + r.val, by omega⟩ : Fin 81920)) (by
    rw [Shape.rowMajor_val_two, Shape.rowMajor_val_three]
    show b.val * 81920 + (o.val * 64 + r.val) = (b.val * 1280 + o.val) * 64 + r.val
    omega)).trans ?_
  exact extractStridedSlice_apply _ _ _ (ix2 b (⟨o.val * 64 + r.val, by omega⟩ : Fin 81920)) (ix2 b (upPos o r)) (fun a => by
    match a with
    | ⟨0, _⟩ => show b.val = 0 + b.val; omega
    | ⟨1, _⟩ => show 81920 + (o.val * 64 + r.val) = 81920 + (o.val * 64 + r.val); rfl)

end Cert.KernelIdeal.Entry

end
-- ==== Proof.Blocks.lean ====
/-
  From the eight blocks to the whole result array.

  The launch has one grid step per sample.  At step `t` every window's block index is `(t, 0, 0)`: the step
  reads sample `t`'s rows, sample `t`'s 128 x 1280 view of the packed row (of which the body loads the first 64
  rows, the down-projection), and sample `t`'s transposed up-projection, and writes sample `t`'s 1024 x 1280
  slab of the result.  So what step `t` writes back is the adapter function restricted to its slab; the eight
  slabs tile the array (index `i` lies in slab `i 0`); hence the array ends holding the adapter function of the
  two arguments.
-/
import proofs.«180186_j2826088480798_2_alg».proof.Proof.Gen.KernelIdeal.Value
import proofs.«180186_j2826088480798_2_alg».proof.Proof.Adapter
import proofs.«180186_j2826088480798_2_alg».proof.Proof.Body
import proofs.«180186_j2826088480798_2_alg».proof.Proof.Entry

noncomputable section

namespace Cert.KernelIdeal.AdapterValue

open Cert.KernelIdeal Cert.KernelIdeal.Gen Idealize.ShloMosaic Idealize.ShloMosaic.TcCoe Idealize.SL.Sem
open Idealize.ShloMosaic.Pipeline (Dat)
open Idealize.ShloMosaic.ValueIdx Cert.Adapter

variable (m : (ℓ : Loc nD τ sig) → Buf (Elt Ideal) ℓ) (ρ : Dev nD → PrngReg)

theorem zero_offsets : (![0, 0, 0] : Fin 3 → Nat) = fun _ => 0 := funext fun a => by fin_cases a <;> rfl

/-! ## One grid step, over plain blocks -/

/-- If three blocks are sample `b`'s rows, its 128 x 1280 view of the packed row and its transposed up-projection,
    the body's stored value is sample `b`'s slab of the adapter function: at every entry `y` of the block and every
    index `i` of the array with `i = (b, y 1, y 2)`. -/
theorem step_eq (X : Vec Ideal S1x1024x1280 .f32) (P : Vec Ideal S1x128x1280 .f32) (W : Vec Ideal S1x64x1280 .f32)
    (x : S8x1024x1280.Idx → EReal) (e : S8x163840.Idx → EReal) (b : Fin 8)
    (hX : ∀ (s : Fin 1024) (d : Fin 1280), X (ix3 0 s d) = x (ix3 b s d))
    (hP : ∀ (q : Fin 128) (d : Fin 1280) (p : Fin 163840), p.val = q.val * 1280 + d.val → P (ix3 0 q d) = e (ix2 b p))
    (hW : ∀ (r : Fin 64) (o : Fin 1280), W (ix3 0 r o) = e (ix2 b (upPos o r)))
    (y : S1x1024x1280.Idx) (i : S8x1024x1280.Idx)
    (h0 : (i 0).val = b.val) (h1 : (i 1).val = (y 1).val) (h2 : (i 2).val = (y 2).val) :
    k0_pay1 (F := Ideal) X (View.ld P r0_1) W y = Cert.Adapter.out x e i := by
  obtain ⟨z, s, o, rfl⟩ : ∃ (z : Fin 1) (s : Fin 1024) (o : Fin 1280), y = ix3 z s o := ⟨y 0, y 1, y 2, eq_ix3 y⟩
  obtain rfl : z = 0 := Subsingleton.elim _ _
  obtain rfl : i = ix3 b s o := by
    rw [eq_ix3 i]
    exact congr (congr (congrArg ix3 (Fin.ext h0)) (Fin.ext h1)) (Fin.ext h2)
  rw [out_ix3, Body.stored_apply]
  unfold Cert.Adapter.outAt Cert.Adapter.hidden
  refine Finset.sum_congr rfl fun r _ => ?_
  rw [hW r o]
  refine congrArg (· * e (ix2 b (upPos o r))) ?_
  refine Finset.sum_congr rfl fun d _ => ?_
  rw [hX s d]
  refine congrArg (x (ix3 b s d) * ·) ?_
  have hr := r.isLt
  refine (show View.ld P r0_1 (ix3 0 r d) = P (ix3 0 (⟨r.val, by omega⟩ : Fin 128) d) from congrArg P (funext fun a => Fin.ext (by
    match a with
    | ⟨0, _⟩ => show 0 + 1 * 0 = 0; rfl
    | ⟨1, _⟩ => show 0 + 1 * r.val = r.val; omega
    | ⟨2, _⟩ => show 0 + 1 * d.val = d.val; omega))).trans ?_
  exact hP ⟨r.val, by omega⟩ d (downPos r d) rfl

/-! ## The windows at a grid step -/

/-- At step `t` every window's block index is `(t, 0, 0)` (decided over the eight steps). -/
theorem step_blocks : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

theorem step_lt (t : Fin cfg0.N) : t.val < 8 := Nat.lt_of_lt_of_eq t.isLt N_0

/-- Step `t`'s block of the first window is sample `t`'s rows of the first argument. -/
theorem rows_block (c : Dev nD) (t : Fin cfg0.N) (s : Fin 1024) (d : Fin 1280) :
    (iblk m c 0 t : Vec Ideal S1x1024x1280 .f32) (ix3 0 s d)
      = m ((c : Thread nD τ).loc main_arg0) (ix3 (⟨t.val, step_lt t⟩ : Fin 8) s d) := by
  obtain ⟨⟨e0, e1, e2⟩, -, -, -⟩ := step_blocks t
  show V m c main_arg0 (((cfg0.win 0).blk t).view.emb (ix3 0 s d)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 1024 + 1 * s.val = s.val; omega
  | ⟨2, _⟩ => show win0_0.index t (2 : Fin 3) * 1280 + 1 * d.val = d.val; omega

/-- Step `t`'s block of the second window is sample `t`'s packed row, viewed 128 x 1280. -/
theorem packed_block (c : Dev nD) (t : Fin cfg0.N) (q : Fin 128) (d : Fin 1280) (p : Fin 163840) (hp : p.val = q.val * 1280 + d.val) :
    (iblk m c 1 t : Vec Ideal S1x128x1280 .f32) (ix3 0 q d)
      = m ((c : Thread nD τ).loc main_arg1) (ix2 (⟨t.val, step_lt t⟩ : Fin 8) p) := by
  obtain ⟨-, ⟨e0, e1, e2⟩, -, -⟩ := step_blocks t
  refine Eq.trans ?_ (Entry.packed_view_apply m c ⟨t.val, step_lt t⟩ q d p hp)
  show V m c main_v0 (((cfg0.win 1).blk t).view.emb (ix3 0 q d)) = V m c main_v0 (ix3 (⟨t.val, step_lt t⟩ : Fin 8) q d)
  refine congrArg _ (funext fun a => Fin.ext ?_)
  match a with
  | ⟨0, _⟩ => show win0_1.index t (0 : Fin 3) * 1 + 1 * 0 = t.val; omega
  | ⟨1, _⟩ => show win0_1.index t (1 : Fin 3) * 128 + 1 * q.val = q.val; omega
  | ⟨2, _⟩ => show win0_1.index t (2 : Fin 3) * 1280 + 1 * d.val = d.val; omega

/-- Step `t`'s block of the third window is sample `t`'s transposed up-projection. -/
theorem up_block (c : Dev nD) (t : Fin cfg0.N) (r : Fin 64) (o : Fin 1280) :
    (iblk m c 2 t : Vec Ideal S1x64x1280 .f32) (ix3 0 r o)
      = m ((c : Thread nD τ).loc main_arg1) (ix2 (⟨t.val, step_lt t⟩ : Fin 8) (upPos o r)) := by
  obtain ⟨-, -, ⟨e0, e1, e2⟩, -⟩ := step_blocks t
  refine Eq.trans ?_ (Entry.up_view_apply m c ⟨t.val, step_lt t⟩ r o)
  show V m c main_v3 (((cfg0.win 2).blk t).view.emb (ix3 0 r o)) = V m c main_v3 (ix3 (⟨t.val, step_lt t⟩ : Fin 8) r o)
  refine congrArg _ (funext fun a => Fin.ext ?_)
  match a with
  | ⟨0, _⟩ => show win0_2.index t (0 : Fin 3) * 1 + 1 * 0 = t.val; omega
  | ⟨1, _⟩ => show win0_2.index t (1 : Fin 3) * 64 + 1 * r.val = r.val; omega
  | ⟨2, _⟩ => show win0_2.index t (2 : Fin 3) * 1280 + 1 * o.val = o.val; omega

/-! ## What a step writes back, the cover, the array -/

/-- What step `t` writes back is its slab of the adapter function of the two arguments. -/
theorem flushed_eq (c : Dev nD) (t : Fin cfg0.N) :
    (dats m 0 c).flushed 3 t
      = ((cfg0.win 3).blk t).view.read (Elt Ideal)
          (Cert.Adapter.out (m ((c : Thread nD τ).loc main_arg0)) (m ((c : Thread nD τ).loc main_arg1))) := by
  rw [Value.flushed3]
  unfold out0_3
  rw [View.canon_unit_zero zero_offsets]
  simp only [View.ld_unit_zero (S := S1x1024x1280) zero_offsets, View.ld_unit_zero (S := S1x64x1280) zero_offsets]
  obtain ⟨-, -, -, ⟨e0, e1, e2⟩⟩ := step_blocks t
  funext j
  show k0_pay1 (F := Ideal) (iblk m c 0 t) (View.ld (iblk m c 1 t) r0_1) (iblk m c 2 t) j
    = Cert.Adapter.out (m ((c : Thread nD τ).loc main_arg0)) (m ((c : Thread nD τ).loc main_arg1)) (((cfg0.win 3).blk t).view.emb j)
  have hj0 : (j 0).val < 1 := (j 0).isLt
  refine step_eq (iblk m c 0 t) (iblk m c 1 t) (iblk m c 2 t) _ _ ⟨t.val, step_lt t⟩
    (rows_block m c t) (packed_block m c t) (up_block m c t) j _ ?_ ?_ ?_
  · show win0_3.index t (0 : Fin 3) * 1 + 1 * (j 0).val = t.val; omega
  · show win0_3.index t (1 : Fin 3) * 1024 + 1 * (j 1).val = (j 1).val; omega
  · show win0_3.index t (2 : Fin 3) * 1280 + 1 * (j 2).val = (j 2).val; omega

/-- An index is in step `t`'s slab iff each coordinate is in the slab's range on its axis. -/
theorem mem_slab (t : Fin cfg0.N) (i : S8x1024x1280.Idx) :
    i ∈ ((cfg0.win 3).blk t).view.set ↔ ∀ a : Fin 3, win0_3.index t a * S1x1024x1280.size a ≤ (i a).val
      ∧ (i a).val < win0_3.index t a * S1x1024x1280.size a + S1x1024x1280.size a := by
  show i ∈ ((View.whole main_v4).slice (win0_3.rect t)).set ↔ _
  rw [View.set_slice_whole, Rect.mem_set_unit]
  exact Iff.rfl

/-- The eight slabs tile the array: index `i` lies in the slab of step `i 0`. -/
theorem cover (i : S8x1024x1280.Idx) :
    ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 1280 := (i 2).isLt
  obtain ⟨t, ht⟩ : ∃ t : Fin cfg0.N, t.val = (i 0).val := ⟨⟨(i 0).val, by rw [show cfg0.N = 8 from N_0]; exact h0⟩, rfl⟩
  obtain ⟨-, -, -, ⟨e0, e1, e2⟩⟩ := step_blocks t
  refine ⟨t, flush0_3 t, ?_⟩
  rw [mem_slab]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1280 ≤ (i 2).val ∧ (i 2).val < win0_3.index t (2 : Fin 3) * 1280 + 1280; omega

/-- The result array after the launch is the adapter function of the two arguments. -/
theorem final (c : Dev nD) :
    (dats m 0 c).arrAt 3 cfg0.N
      = Cert.Adapter.out (m ((c : Thread nD τ).loc main_arg0)) (m ((c : Thread nD τ).loc main_arg1)) :=
  (dats m 0 c).arrAt_eq_of_cover 3 _ (fun t _ => flushed_eq m c t) cover

/-- Every weakly fair execution of the idealized kernel program terminates with the result array at the adapter
    function of the arguments, the arguments unchanged. -/
theorem run : θ_run defs (onTc (τ := τ) (main (F := Ideal))) ⟨m, fun _ => 0, ρ⟩ fun r => ∀ c : Dev nD,
      r.2.mem ((c : Thread nD τ).loc main_v4)
        = Cert.Adapter.out (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.AdapterValue

end
-- ==== Proof.Reference.lean ====
/-
  The reference program computes the adapter function.

  Read one operation at a time: the last batched product sums, over the 64 directions `r`, the first product's
  entry `(b, s, r)` times the reshaped second half of the packed row at `(b, o, r)`; the first product sums,
  over the 1280 features `d`, `x[b, s, d]` times the reshaped first half of the packed row at `(b, r, d)`.
  A slice followed by a row-major reshape reads the flat row at the row-major position: `r * 1280 + d` in the
  first half, `81920 + (o * 64 + r)` in the second.  These are exactly the positions of the specification.
-/
import proofs.«180186_j2826088480798_2_alg».proof.Proof.Gen.ReferenceIdeal.Read
import proofs.«180186_j2826088480798_2_alg».proof.Proof.Adapter

noncomputable section

namespace Cert.ReferenceIdeal.AdapterValue

open Cert.ReferenceIdeal Cert.ReferenceIdeal.Read Idealize.ShloMosaic Idealize.ShloMosaic.ValueIdx Cert.Adapter

/-- The row of the input the first product reads for entry `(b, s, r)` at feature `d`. -/
theorem x_pos (b : Fin 8) (s : Fin 1024) (o : Fin 1280) (r : Fin 64) (d : Fin 1280) :
    lidx_main_v2 (lidx_main_v5 (ix3 b s o) r) d = ix3 b s d :=
  funext fun a => Fin.ext (by
    match a with
    | ⟨0, _⟩ => rfl
    | ⟨1, _⟩ => rfl
    | ⟨2, _⟩ => rfl)

/-- The first half of the packed row, reshaped 64 x 1280, read at `(b, r, d)`: flat position `r * 1280 + d`. -/
theorem down_pos (b : Fin 8) (s : Fin 1024) (o : Fin 1280) (r : Fin 64) (d : Fin 1280) :
    idx_main_v0 (idx_main_v1 (ridx_main_v2 (lidx_main_v5 (ix3 b s o) r) d)) = ix2 b (downPos r d) :=
  funext fun a => Fin.ext (by
    have hb := b.isLt; have hr := r.isLt; have hd := d.isLt
    match a with
    | ⟨0, _⟩ => show ((b.val * 64 + r.val) * 1280 + d.val) / 81920 = b.val; omega
    | ⟨1, _⟩ => show ((b.val * 64 + r.val) * 1280 + d.val) % 81920 = r.val * 1280 + d.val; omega)

/-- The second half of the packed row, reshaped 1280 x 64, read at `(b, o, r)`: flat position `81920 + (o * 64 + r)`. -/
theorem up_pos (b : Fin 8) (s : Fin 1024) (o : Fin 1280) (r : Fin 64) :
    idx_main_v3 (idx_main_v4 (ridx_main_v5 (ix3 b s o) r)) = ix2 b (upPos o r) :=
  funext fun a => Fin.ext (by
    have hb := b.isLt; have hr := r.isLt; have ho := o.isLt
    match a with
    | ⟨0, _⟩ => show ((b.val * 1280 + o.val) * 64 + r.val) / 81920 = b.val; omega
    | ⟨1, _⟩ => show 81920 + ((b.val * 1280 + o.val) * 64 + r.val) % 81920 = 81920 + (o.val * 64 + r.val); omega)

/-- The reference's result, as the generated reading states it, is the adapter function of the two arguments. -/
theorem result_eq (x : (⟨S8x1024x1280, .f32⟩ : BufTy).Contents (Elt Ideal)) (e : (⟨S8x163840, .f32⟩ : BufTy).Contents (Elt Ideal)) :
    val_main_v5 (F := Ideal) x e = Cert.Adapter.out x e := by
  funext i
  obtain ⟨b, s, o, rfl⟩ : ∃ (b : Fin 8) (s : Fin 1024) (o : Fin 1280), i = ix3 b s o := ⟨i 0, i 1, i 2, eq_ix3 i⟩
  rw [out_ix3, val_main_v5_apply]
  unfold Cert.Adapter.outAt Cert.Adapter.hidden
  refine Finset.sum_congr rfl fun r _ => ?_
  rw [val_main_v2_apply, val_main_v4_apply, val_main_v3_apply, up_pos]
  refine congrArg (· * e (ix2 b (upPos o r))) ?_
  refine Finset.sum_congr rfl fun d _ => ?_
  rw [val_main_v1_apply, val_main_v0_apply, x_pos, down_pos]

end Cert.ReferenceIdeal.AdapterValue

end
-- ==== Proof.lean ====
/-
  A per-sample low-rank adapter, computed two ways.

  Each of 8 samples has 1024 rows of 1280 features and a packed row of 163840 numbers holding a 64 x 1280
  down-projection followed by a 1280 x 64 up-projection.  The result is, for sample `b`, row `s`, feature `o`,
  `sum over r of (sum over d of x[b, s, d] * down_b[r, d]) * up_b[o, r]`.

  The kernel program views the packed row as 128 rows of 1280, transposes the up-projection on the host, and
  launches one grid step per sample; the step multiplies the sample's rows by the first 64 rows of the view and
  the product by the transposed up-projection, each into a zero accumulator, narrowing to a shorter float
  format on the way in (the identity on the extended reals).  The reference slices and reshapes the packed row
  and applies two batched products.  Entry by entry both are the nested sum above, in the same nesting, reading
  the same positions of the packed row; the two results are equal as extended reals with no use of the
  inputs' finiteness.

  The frames of the two kernel programs are the generated frame certificates; the reference's frame is its
  generated run with the result dropped; the idealization rewrote nothing, so there is nothing to preserve.
-/
import proofs.«180186_j2826088480798_2_alg».proof.Defs
import proofs.«180186_j2826088480798_2_alg».proof.Proof.Gen.Kernel
import proofs.«180186_j2826088480798_2_alg».proof.Proof.Gen.Kernel.Frame
import proofs.«180186_j2826088480798_2_alg».proof.Proof.Gen.KernelIdeal
import proofs.«180186_j2826088480798_2_alg».proof.Proof.Gen.KernelIdeal.Frame
import proofs.«180186_j2826088480798_2_alg».proof.Proof.Gen.KernelIdeal.Value
import proofs.«180186_j2826088480798_2_alg».proof.Proof.Gen.ReferenceIdeal
import proofs.«180186_j2826088480798_2_alg».proof.Proof.Gen.ReferenceIdeal.Run
import proofs.«180186_j2826088480798_2_alg».proof.Proof.Gen.ReferenceIdeal.Read
import proofs.«180186_j2826088480798_2_alg».proof.Proof.Gen.Pre_finite_inputs
import proofs.«180186_j2826088480798_2_alg».proof.Proof.Blocks
import proofs.«180186_j2826088480798_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the two arguments, the kernel program's result array ends at the adapter function
    of its arguments and the reference's at the adapter function of its own: one array. -/
theorem algebraic : Cert.algebraic_KernelIdeal_ReferenceIdeal := by
  intro m ρ m' ρ' _ hagree
  refine ⟨_, Cert.KernelIdeal.AdapterValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v5_eq _ _).trans (Cert.ReferenceIdeal.AdapterValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
